-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v44)) (v1 : (c : Dev Cert.KernelIdeal.nD) → Buf (Elt Ideal) ((c.tc : Thread Cert.KernelIdeal.nD Cert.KernelIdeal.τ).loc Cert.KernelIdeal.main_v46)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = v0 c
          ∧ r.2.mem ((c.tc : Thread Cert.KernelIdeal.nD Cert.KernelIdeal.τ).loc Cert.KernelIdeal.main_v46) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x100000x16 : Shape := ⟨3, ![2, 100000, 16]⟩
abbrev S2x1080x1920x3 : Shape := ⟨4, ![2, 1080, 1920, 3]⟩
abbrev S200000x3 : Shape := ⟨2, ![200000, 3]⟩
abbrev S2x1080x1920 : Shape := ⟨3, ![2, 1080, 1920]⟩
abbrev S_ : Shape := ⟨0, ![]⟩

class Facts : Prop where
  bcast_S_S2x100000x16 : S_.BroadcastsInDim S2x100000x16 (![] : Fin 0 → Fin S2x100000x16.rank)
  reducesTo_S2x100000x16_S_d0_1_2 : S2x100000x16.ReducesTo [0, 1, 2] S_
  h_S_ : 0 < S_.numel
  bcast_S_S2x1080x1920x3 : S_.BroadcastsInDim S2x1080x1920x3 (![] : Fin 0 → Fin S2x1080x1920x3.rank)
  reducesTo_S2x1080x1920x3_S_d0_1_2_3 : S2x1080x1920x3.ReducesTo [0, 1, 2, 3] S_

variable [Facts]

def fn {F : FTy → Type} [FloatOps F] (main_arg0 : FVec F S2x100000x16 .f32) (main_arg1 : FVec F S2x1080x1920x3 .f32) (main_arg2 : IVec S200000x3 32) (main_arg3 : IVec S2x1080x1920 32) : IVec S_ 1 :=
  let main_v0 : FVec F S2x100000x16 .f32 := Host.absf main_arg0
  let main_cst : FVec F S_ .f32 := constant S_ .f32 0x7F800000#32
  let main_v1 : FVec F S2x100000x16 .f32 := broadcastInDim S2x100000x16 ![] bcast_S_S2x100000x16 main_cst
  let main_v2 : IVec S2x100000x16 1 := cmpf .olt main_v0 main_v1
  let main_c : IVec S_ 1 := constantI S_ 1 1#1
  let main_v3 : IVec S_ 1 := (fun x v => Host.reduce IntOp.andi x v reducesTo_S2x100000x16_S_d0_1_2 h_S_) main_v2 main_c
  let main_v4 : FVec F S2x1080x1920x3 .f32 := Host.absf main_arg1
  let main_cst_0 : FVec F S_ .f32 := constant S_ .f32 0x7F800000#32
  let main_v5 : FVec F S2x1080x1920x3 .f32 := broadcastInDim S2x1080x1920x3 ![] bcast_S_S2x1080x1920x3 main_cst_0
  let main_v6 : IVec S2x1080x1920x3 1 := cmpf .olt main_v4 main_v5
  let main_c_1 : IVec S_ 1 := constantI S_ 1 1#1
  let main_v7 : IVec S_ 1 := (fun x v => Host.reduce IntOp.andi x v reducesTo_S2x1080x1920x3_S_d0_1_2_3 h_S_) main_v6 main_c_1
  let main_v8 : IVec S_ 1 := andi main_v3 main_v7
  main_v8
-- ==== Kernel.lean ====
abbrev S2x100000x16 : Shape := ⟨3, ![2, 100000, 16]⟩
abbrev S2x1080x1920x3 : Shape := ⟨4, ![2, 1080, 1920, 3]⟩
abbrev S200000x3 : Shape := ⟨2, ![200000, 3]⟩
abbrev S2x1080x1920 : Shape := ⟨3, ![2, 1080, 1920]⟩
abbrev S_ : Shape := ⟨0, ![]⟩
abbrev S2x1080x1920x1 : Shape := ⟨4, ![2, 1080, 1920, 1]⟩
abbrev S2x1080x1920x16 : Shape := ⟨4, ![2, 1080, 1920, 16]⟩
abbrev S2x1080x30720 : Shape := ⟨3, ![2, 1080, 30720]⟩
abbrev S1x24x1920 : Shape := ⟨3, ![1, 24, 1920]⟩
abbrev S1x24x30720 : Shape := ⟨3, ![1, 24, 30720]⟩
abbrev S1x24x1920x1 : Shape := ⟨4, ![1, 24, 1920, 1]⟩
abbrev S1x24x1920x16 : Shape := ⟨4, ![1, 24, 1920, 16]⟩

abbrev nBuf : Space → Nat
  | .hbm => 60
  | .vmem => 14
  | .smem => 0
  | _ => 0

abbrev bufTy : (tb : Table) → Fin (tcTables nBuf tb) → BufTy
  | .hbm, ⟨0, _⟩ => ⟨S2x100000x16, .f32⟩
  | .hbm, ⟨1, _⟩ => ⟨S2x1080x1920x3, .f32⟩
  | .hbm, ⟨2, _⟩ => ⟨S200000x3, .i32⟩
  | .hbm, ⟨3, _⟩ => ⟨S2x1080x1920, .i32⟩
  | .hbm, ⟨4, _⟩ => ⟨S_, .i32⟩
  | .hbm, ⟨5, _⟩ => ⟨S2x1080x1920, .i32⟩
  | .hbm, ⟨6, _⟩ => ⟨S2x1080x1920, .i1⟩
  | .hbm, ⟨7, _⟩ => ⟨S_, .i32⟩
  | .hbm, ⟨8, _⟩ => ⟨S2x1080x1920, .i32⟩
  | .hbm, ⟨9, _⟩ => ⟨S2x1080x1920, .i32⟩
  | .hbm, ⟨10, _⟩ => ⟨S2x1080x1920, .i32⟩
  | .hbm, ⟨11, _⟩ => ⟨S2x1080x1920x1, .i32⟩
  | .hbm, ⟨12, _⟩ => ⟨S2x1080x1920x3, .i32⟩
  | .hbm, ⟨13, _⟩ => ⟨S2x1080x1920x1, .i32⟩
  | .hbm, ⟨14, _⟩ => ⟨S2x1080x1920, .i32⟩
  | .hbm, ⟨15, _⟩ => ⟨S2x1080x1920x1, .i32⟩
  | .hbm, ⟨16, _⟩ => ⟨S2x1080x1920, .i32⟩
  | .hbm, ⟨17, _⟩ => ⟨S2x1080x1920x1, .i32⟩
  | .hbm, ⟨18, _⟩ => ⟨S2x1080x1920, .i32⟩
  | .hbm, ⟨19, _⟩ => ⟨S_, .i32⟩
  | .hbm, ⟨20, _⟩ => ⟨S2x1080x1920, .i32⟩
  | .hbm, ⟨21, _⟩ => ⟨S2x1080x1920, .i1⟩
  | .hbm, ⟨22, _⟩ => ⟨S_, .i32⟩
  | .hbm, ⟨23, _⟩ => ⟨S2x1080x1920, .i32⟩
  | .hbm, ⟨24, _⟩ => ⟨S2x1080x1920, .i32⟩
  | .hbm, ⟨25, _⟩ => ⟨S2x1080x1920, .i32⟩
  | .hbm, ⟨26, _⟩ => ⟨S2x1080x1920x1, .i32⟩
  | .hbm, ⟨27, _⟩ => ⟨S2x1080x1920x16, .f32⟩
  | .hbm, ⟨28, _⟩ => ⟨S_, .i32⟩
  | .hbm, ⟨29, _⟩ => ⟨S2x1080x1920, .i32⟩
  | .hbm, ⟨30, _⟩ => ⟨S2x1080x1920, .i1⟩
  | .hbm, ⟨31, _⟩ => ⟨S_, .i32⟩
  | .hbm, ⟨32, _⟩ => ⟨S2x1080x1920, .i32⟩
  | .hbm, ⟨33, _⟩ => ⟨S2x1080x1920, .i32⟩
  | .hbm, ⟨34, _⟩ => ⟨S2x1080x1920, .i32⟩
  | .hbm, ⟨35, _⟩ => ⟨S2x1080x1920x1, .i32⟩
  | .hbm, ⟨36, _⟩ => ⟨S2x1080x1920x16, .f32⟩
  | .hbm, ⟨37, _⟩ => ⟨S_, .i32⟩
  | .hbm, ⟨38, _⟩ => ⟨S2x1080x1920, .i32⟩
  | .hbm, ⟨39, _⟩ => ⟨S2x1080x1920, .i1⟩
  | .hbm, ⟨40, _⟩ => ⟨S_, .i32⟩
  | .hbm, ⟨41, _⟩ => ⟨S2x1080x1920, .i32⟩
  | .hbm, ⟨42, _⟩ => ⟨S2x1080x1920, .i32⟩
  | .hbm, ⟨43, _⟩ => ⟨S2x1080x1920, .i32⟩
  | .hbm, ⟨44, _⟩ => ⟨S2x1080x1920x1, .i32⟩
  | .hbm, ⟨45, _⟩ => ⟨S2x1080x1920x16, .f32⟩
  | .hbm, ⟨46, _⟩ => ⟨S2x1080x1920x1, .f32⟩
  | .hbm, ⟨47, _⟩ => ⟨S2x1080x1920, .f32⟩
  | .hbm, ⟨48, _⟩ => ⟨S2x1080x1920x1, .f32⟩
  | .hbm, ⟨49, _⟩ => ⟨S2x1080x1920, .f32⟩
  | .hbm, ⟨50, _⟩ => ⟨S2x1080x1920x1, .f32⟩
  | .hbm, ⟨51, _⟩ => ⟨S2x1080x1920, .f32⟩
  | .hbm, ⟨52, _⟩ => ⟨S2x1080x30720, .f32⟩
  | .hbm, ⟨53, _⟩ => ⟨S2x1080x30720, .f32⟩
  | .hbm, ⟨54, _⟩ => ⟨S2x1080x30720, .f32⟩
  | .hbm, ⟨55, _⟩ => ⟨S2x1080x30720, .f32⟩
  | .hbm, ⟨56, _⟩ => ⟨S2x1080x1920x16, .f32⟩
  | .hbm, ⟨57, _⟩ => ⟨S_, .i32⟩
  | .hbm, ⟨58, _⟩ => ⟨S2x1080x1920, .i32⟩
  | .hbm, ⟨59, _⟩ => ⟨S2x1080x1920, .i1⟩
  | .local _ .vmem, ⟨0, _⟩ => ⟨S1x24x1920, .f32⟩
  | .local _ .vmem, ⟨1, _⟩ => ⟨S1x24x1920, .f32⟩
  | .local _ .vmem, ⟨2, _⟩ => ⟨S1x24x1920, .f32⟩
  | .local _ .vmem, ⟨3, _⟩ => ⟨S1x24x1920, .f32⟩
  | .local _ .vmem, ⟨4, _⟩ => ⟨S1x24x1920, .f32⟩
  | .local _ .vmem, ⟨5, _⟩ => ⟨S1x24x1920, .f32⟩
  | .local _ .vmem, ⟨6, _⟩ => ⟨S1x24x30720, .f32⟩
  | .local _ .vmem, ⟨7, _⟩ => ⟨S1x24x30720, .f32⟩
  | .local _ .vmem, ⟨8, _⟩ => ⟨S1x24x30720, .f32⟩
  | .local _ .vmem, ⟨9, _⟩ => ⟨S1x24x30720, .f32⟩
  | .local _ .vmem, ⟨10, _⟩ => ⟨S1x24x30720, .f32⟩
  | .local _ .vmem, ⟨11, _⟩ => ⟨S1x24x30720, .f32⟩
  | .local _ .vmem, ⟨12, _⟩ => ⟨S1x24x30720, .f32⟩
  | .local _ .vmem, ⟨13, _⟩ => ⟨S1x24x30720, .f32⟩
  | _, _ => ⟨S2x100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_c_3 : Ref sig .tc := ⟨.hbm, 28, rfl⟩
abbrev main_v20 : Ref sig .tc := ⟨.hbm, 29, rfl⟩
abbrev main_v21 : Ref sig .tc := ⟨.hbm, 30, rfl⟩
abbrev main_c_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_c_5 : Ref sig .tc := ⟨.hbm, 37, rfl⟩
abbrev main_v27 : Ref sig .tc := ⟨.hbm, 38, rfl⟩
abbrev main_v28 : Ref sig .tc := ⟨.hbm, 39, rfl⟩
abbrev main_c_6 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_c_7 : Ref sig .tc := ⟨.hbm, 57, rfl⟩
abbrev main_v45 : Ref sig .tc := ⟨.hbm, 58, rfl⟩
abbrev main_v46 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![2, 45], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x24x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x24x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x24x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x30720 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x24x30720 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x24x30720 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x24x30720 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bcast_S_S2x1080x1920 : S_.BroadcastsInDim S2x1080x1920 (![] : Fin 0 → Fin S2x1080x1920.rank)
  bcast_S2x1080x1920_S2x1080x1920x1_0_1_2 : S2x1080x1920.BroadcastsInDim S2x1080x1920x1 (![0, 1, 2] : Fin 3 → Fin S2x1080x1920x1.rank)
  slices_S2x1080x1920x3_S2x1080x1920x1_0_0_0_0 : S2x1080x1920x3.Slices ![0, 0, 0, 0] S2x1080x1920x1
  shapeCasts_S2x1080x1920x1_S2x1080x1920 : S2x1080x1920x1.ShapeCasts S2x1080x1920
  slices_S2x1080x1920x3_S2x1080x1920x1_0_0_0_1 : S2x1080x1920x3.Slices ![0, 0, 0, 1] S2x1080x1920x1
  slices_S2x1080x1920x3_S2x1080x1920x1_0_0_0_2 : S2x1080x1920x3.Slices ![0, 0, 0, 2] S2x1080x1920x1
  shapeCasts_S2x1080x1920x16_S2x1080x30720 : S2x1080x1920x16.ShapeCasts S2x1080x30720
  inb_S1x24x1920_S1x24x1920_0_0_0 : ∀ a, (![0, 0, 0] : Fin 3 → Nat) a + S1x24x1920.size a ≤ S1x24x1920.size a
  h_S1x24x1920 : 0 < S1x24x1920.numel
  shapeCasts_S1x24x1920_S1x24x1920 : S1x24x1920.ShapeCasts S1x24x1920
  shapeCasts_S1x24x1920_S1x24x1920x1 : S1x24x1920.ShapeCasts S1x24x1920x1
  shapeCasts_S1x24x1920x1_S1x24x1920x1 : S1x24x1920x1.ShapeCasts S1x24x1920x1
  broadcasts_S1x24x1920x1_S1x24x1920x16 : S1x24x1920x1.Broadcasts S1x24x1920x16
  shapeCasts_S1x24x1920x16_S1x24x30720 : S1x24x1920x16.ShapeCasts S1x24x30720
  inb_S1x24x30720_S1x24x30720_0_0_0 : ∀ a, (![0, 0, 0] : Fin 3 → Nat) a + S1x24x30720.size a ≤ S1x24x30720.size a
  h_S1x24x30720 : 0 < S1x24x30720.numel
  shapeCasts_S1x24x30720_S1x24x30720 : S1x24x30720.ShapeCasts S1x24x30720
  shapeCasts_S2x1080x30720_S2x1080x1920x16 : S2x1080x30720.ShapeCasts S2x1080x1920x16
  gather_S200000x3_S2x1080x1920x1_S2x1080x1920x3_3_0_n_n_0_3_13_wf : GatherDims.WF S200000x3 S2x1080x1920x1 S2x1080x1920x3 [3] [0] [] [0] [] 3 ![1, 3]
  gather_S2x100000x16_S2x1080x1920x1_S2x1080x1920x16_3_1_0_0_1_3_1116_wf : GatherDims.WF S2x100000x16 S2x1080x1920x1 S2x1080x1920x16 [3] [1] [0] [1] [0] 3 ![1, 1, 16]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x24x1920.size a ≤ S2x1080x1920.size a
  hwx0_0 : ∀ i : grid0.Coords, EltTy.bits .f32 = 32 ∨ (Rect.block (s := S2x1080x1920) S1x24x1920.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x24x1920.size a ≤ S2x1080x1920.size a
  hwx0_1 : ∀ i : grid0.Coords, EltTy.bits .f32 = 32 ∨ (Rect.block (s := S2x1080x1920) S1x24x1920.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x24x1920.size a ≤ S2x1080x1920.size a
  hwx0_2 : ∀ i : grid0.Coords, EltTy.bits .f32 = 32 ∨ (Rect.block (s := S2x1080x1920) S1x24x1920.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x24x30720.size a ≤ S2x1080x30720.size a
  hwx0_3 : ∀ i : grid0.Coords, EltTy.bits .f32 = 32 ∨ (Rect.block (s := S2x1080x30720) S1x24x30720.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x24x30720.size a ≤ S2x1080x30720.size a
  hwx0_4 : ∀ i : grid0.Coords, EltTy.bits .f32 = 32 ∨ (Rect.block (s := S2x1080x30720) S1x24x30720.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x24x30720.size a ≤ S2x1080x30720.size a
  hwx0_5 : ∀ i : grid0.Coords, EltTy.bits .f32 = 32 ∨ (Rect.block (s := S2x1080x30720) S1x24x30720.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x24x30720.size a ≤ S2x1080x30720.size a
  hwx0_6 : ∀ i : grid0.Coords, EltTy.bits .f32 = 32 ∨ (Rect.block (s := S2x1080x30720) S1x24x30720.size (cc0_transform_6 i) (hinb0_6 i)).WholeWords (EltTy.packing .f32)

variable [Facts₀]

def gather_S200000x3_S2x1080x1920x1_S2x1080x1920x3_3_0_n_n_0_3_13 : GatherDims S200000x3 S2x1080x1920x1 S2x1080x1920x3 where
  offsetDims := [3]
  collapsedSliceDims := [0]
  operandBatchingDims := []
  startIndicesBatchingDims := []
  startIndexMap := [0]
  indexVectorDim := 3
  sliceSizes := ![1, 3]
  wf := gather_S200000x3_S2x1080x1920x1_S2x1080x1920x3_3_0_n_n_0_3_13_wf
def gather_S2x100000x16_S2x1080x1920x1_S2x1080x1920x16_3_1_0_0_1_3_1116 : GatherDims S2x100000x16 S2x1080x1920x1 S2x1080x1920x16 where
  offsetDims := [3]
  collapsedSliceDims := [1]
  operandBatchingDims := [0]
  startIndicesBatchingDims := [0]
  startIndexMap := [1]
  indexVectorDim := 3
  sliceSizes := ![1, 1, 16]
  wf := gather_S2x100000x16_S2x1080x1920x1_S2x1080x1920x16_3_1_0_0_1_3_1116_wf

abbrev win0_0 : Pipeline.Window sig grid0 :=
  Pipeline.Window.ofSpec (Memref.whole main_v35) S1x24x1920.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v37) S1x24x1920.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v39) S1x24x1920.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v40) S1x24x30720.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v41) S1x24x30720.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v42) S1x24x30720.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v43) S1x24x30720.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x100000x16 : Shape := ⟨3, ![2, 100000, 16]⟩
abbrev S2x1080x1920x3 : Shape := ⟨4, ![2, 1080, 1920, 3]⟩
abbrev S200000x3 : Shape := ⟨2, ![200000, 3]⟩
abbrev S2x1080x1920 : Shape := ⟨3, ![2, 1080, 1920]⟩
abbrev S_ : Shape := ⟨0, ![]⟩
abbrev S2x1080x1920x1 : Shape := ⟨4, ![2, 1080, 1920, 1]⟩
abbrev S2x1080x1920x3x1 : Shape := ⟨5, ![2, 1080, 1920, 3, 1]⟩
abbrev S2x1080x1920x3x16 : Shape := ⟨5, ![2, 1080, 1920, 3, 16]⟩
abbrev S2x1080x1920x16 : Shape := ⟨4, ![2, 1080, 1920, 16]⟩

abbrev nBuf : Space → Nat
  | .hbm => 30
  | .vmem => 0
  | .smem => 0
  | _ => 0

abbrev bufTy : (tb : Table) → Fin (tcTables nBuf tb) → BufTy
  | .hbm, ⟨0, _⟩ => ⟨S2x100000x16, .f32⟩
  | .hbm, ⟨1, _⟩ => ⟨S2x1080x1920x3, .f32⟩
  | .hbm, ⟨2, _⟩ => ⟨S200000x3, .i32⟩
  | .hbm, ⟨3, _⟩ => ⟨S2x1080x1920, .i32⟩
  | .hbm, ⟨4, _⟩ => ⟨S_, .i32⟩
  | .hbm, ⟨5, _⟩ => ⟨S2x1080x1920, .i32⟩
  | .hbm, ⟨6, _⟩ => ⟨S2x1080x1920, .i1⟩
  | .hbm, ⟨7, _⟩ => ⟨S_, .i32⟩
  | .hbm, ⟨8, _⟩ => ⟨S2x1080x1920, .i32⟩
  | .hbm, ⟨9, _⟩ => ⟨S2x1080x1920, .i32⟩
  | .hbm, ⟨10, _⟩ => ⟨S2x1080x1920, .i32⟩
  | .hbm, ⟨11, _⟩ => ⟨S2x1080x1920x1, .i32⟩
  | .hbm, ⟨12, _⟩ => ⟨S2x1080x1920x3, .i32⟩
  | .hbm, ⟨13, _⟩ => ⟨S_, .i32⟩
  | .hbm, ⟨14, _⟩ => ⟨S2x1080x1920x3, .i32⟩
  | .hbm, ⟨15, _⟩ => ⟨S2x1080x1920x3, .i1⟩
  | .hbm, ⟨16, _⟩ => ⟨S_, .i32⟩
  | .hbm, ⟨17, _⟩ => ⟨S2x1080x1920x3, .i32⟩
  | .hbm, ⟨18, _⟩ => ⟨S2x1080x1920x3, .i32⟩
  | .hbm, ⟨19, _⟩ => ⟨S2x1080x1920x3, .i32⟩
  | .hbm, ⟨20, _⟩ => ⟨S2x1080x1920x3x1, .i32⟩
  | .hbm, ⟨21, _⟩ => ⟨S2x1080x1920x3x16, .f32⟩
  | .hbm, ⟨22, _⟩ => ⟨S2x1080x1920x3x1, .f32⟩
  | .hbm, ⟨23, _⟩ => ⟨S2x1080x1920x3x16, .f32⟩
  | .hbm, ⟨24, _⟩ => ⟨S2x1080x1920x3x16, .f32⟩
  | .hbm, ⟨25, _⟩ => ⟨S_, .f32⟩
  | .hbm, ⟨26, _⟩ => ⟨S2x1080x1920x16, .f32⟩
  | .hbm, ⟨27, _⟩ => ⟨S_, .i32⟩
  | .hbm, ⟨28, _⟩ => ⟨S2x1080x1920, .i32⟩
  | .hbm, ⟨29, _⟩ => ⟨S2x1080x1920, .i1⟩
  | _, _ => ⟨S2x100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_c_1 : Ref sig .tc := ⟨.hbm, 13, rfl⟩
abbrev main_v7 : Ref sig .tc := ⟨.hbm, 14, rfl⟩
abbrev main_v8 : Ref sig .tc := ⟨.hbm, 15, rfl⟩
abbrev main_c_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst : Ref sig .tc := ⟨.hbm, 25, rfl⟩
abbrev main_v17 : Ref sig .tc := ⟨.hbm, 26, rfl⟩
abbrev main_c_3 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S2x1080x1920 : S_.BroadcastsInDim S2x1080x1920 (![] : Fin 0 → Fin S2x1080x1920.rank)
  bcast_S2x1080x1920_S2x1080x1920x1_0_1_2 : S2x1080x1920.BroadcastsInDim S2x1080x1920x1 (![0, 1, 2] : Fin 3 → Fin S2x1080x1920x1.rank)
  bcast_S_S2x1080x1920x3 : S_.BroadcastsInDim S2x1080x1920x3 (![] : Fin 0 → Fin S2x1080x1920x3.rank)
  bcast_S2x1080x1920x3_S2x1080x1920x3x1_0_1_2_3 : S2x1080x1920x3.BroadcastsInDim S2x1080x1920x3x1 (![0, 1, 2, 3] : Fin 4 → Fin S2x1080x1920x3x1.rank)
  bcast_S2x1080x1920x3x1_S2x1080x1920x3x16_0_1_2_3_4 : S2x1080x1920x3x1.BroadcastsInDim S2x1080x1920x3x16 (![0, 1, 2, 3, 4] : Fin 5 → Fin S2x1080x1920x3x16.rank)
  reducesTo_S2x1080x1920x3x16_S2x1080x1920x16_d3 : S2x1080x1920x3x16.ReducesTo [3] S2x1080x1920x16
  h_S_ : 0 < S_.numel
  gather_S200000x3_S2x1080x1920x1_S2x1080x1920x3_3_0_n_n_0_3_13_wf : GatherDims.WF S200000x3 S2x1080x1920x1 S2x1080x1920x3 [3] [0] [] [0] [] 3 ![1, 3]
  gather_S2x100000x16_S2x1080x1920x3x1_S2x1080x1920x3x16_4_1_0_0_1_4_1116_wf : GatherDims.WF S2x100000x16 S2x1080x1920x3x1 S2x1080x1920x3x16 [4] [1] [0] [1] [0] 4 ![1, 1, 16]

variable [Facts₀]

def gather_S200000x3_S2x1080x1920x1_S2x1080x1920x3_3_0_n_n_0_3_13 : GatherDims S200000x3 S2x1080x1920x1 S2x1080x1920x3 where
  offsetDims := [3]
  collapsedSliceDims := [0]
  operandBatchingDims := []
  startIndicesBatchingDims := []
  startIndexMap := [0]
  indexVectorDim := 3
  sliceSizes := ![1, 3]
  wf := gather_S200000x3_S2x1080x1920x1_S2x1080x1920x3_3_0_n_n_0_3_13_wf
def gather_S2x100000x16_S2x1080x1920x3x1_S2x1080x1920x3x16_4_1_0_0_1_4_1116 : GatherDims S2x100000x16 S2x1080x1920x3x1 S2x1080x1920x3x16 where
  offsetDims := [4]
  collapsedSliceDims := [1]
  operandBatchingDims := [0]
  startIndicesBatchingDims := [0]
  startIndexMap := [1]
  indexVectorDim := 4
  sliceSizes := ![1, 1, 16]
  wf := gather_S2x100000x16_S2x1080x1920x3x1_S2x1080x1920x3x16_4_1_0_0_1_4_1116_wf

class Facts : Prop extends Facts₀ where

variable [Facts]
-- ==== Proof.LibBatchGather.lean ====
/-
  Row gathers with one batch axis, read at an entry.

  A row lookup done batch by batch, `attr[b, idx[b, …]]`, is a `stablehlo.gather` whose operand `[B, N, C]` and start
  indices share batch axis 0 (operand_batching_dims `[0]`, start_indices_batching_dims `[0]`), whose one start
  index component names operand axis 1 (start_index_map `[1]`, collapsed), and whose slices are whole rows along
  the last axis (slice sizes `[1, 1, C]`). The result entry at batch `b`, the remaining index coordinates and a
  column `c` is the operand at `(b, clamp(idx[b, …, 0]), c)`: the start index is read as a signed integer and
  clamped into `[0, N - 1]`. Two index ranks are stated: start indices `[B, H, W, 1]` (result `[B, H, W, C]`) and
  `[B, H, W, K, 1]` (result `[B, H, W, K, C]`), for any extents and any element type.
-/
import Idealize.ShloMosaic.Lib.ValueIdx

noncomputable section

namespace Idealize.ShloMosaic.BatchGather

open Idealize.ShloMosaic Idealize.ShloMosaic.ValueIdx

variable {α : Type}

/-! ## Start indices `[B, H, W, 1]` -/

/-- The dimension numbers of the batched row gather with start indices `[B, H, W, 1]`. -/
abbrev rows4 (B N C H W : Nat)
    (wf : GatherDims.WF ⟨3, ![B, N, C]⟩ ⟨4, ![B, H, W, 1]⟩ ⟨4, ![B, H, W, C]⟩ [3] [1] [0] [1] [0] 3 ![1, 1, C]) :
    GatherDims ⟨3, ![B, N, C]⟩ ⟨4, ![B, H, W, 1]⟩ ⟨4, ![B, H, W, C]⟩ where
  offsetDims := [3]
  collapsedSliceDims := [1]
  operandBatchingDims := [0]
  startIndicesBatchingDims := [0]
  startIndexMap := [1]
  indexVectorDim := 3
  sliceSizes := ![1, 1, C]
  wf := wf

/-- The clamped row a start index word names: read signed, at most `N - 1`. -/
def row (N : Nat) (hN : 0 < N) {w : Nat} (v : BitVec w) : Fin N := ⟨min v.toInt.toNat (N - 1), by omega⟩

/-- The batched row gather read at `(b, h, p, c)`: the operand at batch `b`, the clamped row `idx[b, h, p, 0]`
    names, column `c`. -/
theorem rows4_apply {B N C H W w : Nat} (hN : 0 < N)
    (wf : GatherDims.WF ⟨3, ![B, N, C]⟩ ⟨4, ![B, H, W, 1]⟩ ⟨4, ![B, H, W, C]⟩ [3] [1] [0] [1] [0] 3 ![1, 1, C])
    (x : (⟨3, ![B, N, C]⟩ : Shape).Idx → α) (idx : IVec ⟨4, ![B, H, W, 1]⟩ w)
    (b : Fin B) (h : Fin H) (p : Fin W) (c : Fin C) :
    Host.gather (rows4 B N C H W wf) x idx (ix4 b h p c)
      = x (ix3 b (row N hN (idx (ix4 b h p ⟨0, Nat.one_pos⟩))) c) := by
  have e0 : (rows4 B N C H W wf).start (ix4 b h p c) idx (0 : Fin 3) + (rows4 B N C H W wf).batchCoord (ix4 b h p c) (0 : Fin 3)
      + (rows4 B N C H W wf).offCoord (ix4 b h p c) (0 : Fin 3) = b.val := by
    rw [GatherDims.start_batching _ _ _ _ (List.mem_singleton.mpr rfl),
      GatherDims.offCoord_eq_zero _ _ _ (fun hh => ((GatherDims.mem_sKept _ _).mp hh).2 (List.mem_singleton.mpr rfl))]
    unfold GatherDims.batchCoord
    rw [dif_pos (show (0 : Fin 3) ∈ (rows4 B N C H W wf).operandBatchingDims from List.mem_singleton.mpr rfl)]
    simp only [Nat.zero_add, Nat.add_zero]
    rfl
  have e1 : (rows4 B N C H W wf).start (ix4 b h p c) idx (1 : Fin 3) + (rows4 B N C H W wf).batchCoord (ix4 b h p c) (1 : Fin 3)
      + (rows4 B N C H W wf).offCoord (ix4 b h p c) (1 : Fin 3) = (row N hN (idx (ix4 b h p ⟨0, Nat.one_pos⟩))).val := by
    rw [GatherDims.batchCoord_eq_zero _ _ _ (show (1 : Fin 3) ∉ ([0] : List (Fin 3)) by decide),
      GatherDims.offCoord_eq_zero _ _ _ (fun hh => ((GatherDims.mem_sKept _ _).mp hh).1 (List.mem_singleton.mpr rfl))]
    simp only [Nat.add_zero]
    unfold GatherDims.start
    rw [dif_pos (show (1 : Fin 3) ∈ (rows4 B N C H W wf).startIndexMap from List.mem_singleton.mpr rfl)]
    have hsi : (rows4 B N C H W wf).siIdx (ix4 b h p c) ⟨List.idxOf (1 : Fin 3) (rows4 B N C H W wf).startIndexMap,
        List.idxOf_lt_length_iff.2 (List.mem_singleton.mpr rfl)⟩ = ix4 b h p ⟨0, Nat.one_pos⟩ := by
      funext k; refine Fin.ext ?_
      match k with
      | ⟨0, _⟩ => rfl
      | ⟨1, _⟩ => rfl
      | ⟨2, _⟩ => rfl
      | ⟨3, _⟩ => rfl
    rw [hsi]
    rfl
  have e2 : (rows4 B N C H W wf).start (ix4 b h p c) idx (2 : Fin 3) + (rows4 B N C H W wf).batchCoord (ix4 b h p c) (2 : Fin 3)
      + (rows4 B N C H W wf).offCoord (ix4 b h p c) (2 : Fin 3) = c.val := by
    rw [GatherDims.batchCoord_eq_zero _ _ _ (show (2 : Fin 3) ∉ ([0] : List (Fin 3)) by decide)]
    unfold GatherDims.start
    rw [dif_neg (show (2 : Fin 3) ∉ ([1] : List (Fin 3)) by decide)]
    unfold GatherDims.offCoord
    rw [dif_pos ((GatherDims.mem_sKept _ _).mpr ⟨(show (2 : Fin 3) ∉ ([1] : List (Fin 3)) by decide),
      (show (2 : Fin 3) ∉ ([0] : List (Fin 3)) by decide)⟩)]
    simp only [Nat.zero_add]
    rfl
  unfold Host.gather
  congr 1
  funext a
  refine Fin.ext ?_
  match a with
  | ⟨0, _⟩ => exact e0
  | ⟨1, _⟩ => exact e1
  | ⟨2, _⟩ => exact e2

/-! ## Start indices `[B, H, W, K, 1]` -/

/-- The dimension numbers of the batched row gather with start indices `[B, H, W, K, 1]`. -/
abbrev rows5 (B N C H W K : Nat)
    (wf : GatherDims.WF ⟨3, ![B, N, C]⟩ ⟨5, ![B, H, W, K, 1]⟩ ⟨5, ![B, H, W, K, C]⟩ [4] [1] [0] [1] [0] 4 ![1, 1, C]) :
    GatherDims ⟨3, ![B, N, C]⟩ ⟨5, ![B, H, W, K, 1]⟩ ⟨5, ![B, H, W, K, C]⟩ where
  offsetDims := [4]
  collapsedSliceDims := [1]
  operandBatchingDims := [0]
  startIndicesBatchingDims := [0]
  startIndexMap := [1]
  indexVectorDim := 4
  sliceSizes := ![1, 1, C]
  wf := wf

/-- The batched row gather read at `(b, h, p, k, c)`: the operand at batch `b`, the clamped row `idx[b, h, p, k, 0]`
    names, column `c`. -/
theorem rows5_apply {B N C H W K w : Nat} (hN : 0 < N)
    (wf : GatherDims.WF ⟨3, ![B, N, C]⟩ ⟨5, ![B, H, W, K, 1]⟩ ⟨5, ![B, H, W, K, C]⟩ [4] [1] [0] [1] [0] 4 ![1, 1, C])
    (x : (⟨3, ![B, N, C]⟩ : Shape).Idx → α) (idx : IVec ⟨5, ![B, H, W, K, 1]⟩ w)
    (b : Fin B) (h : Fin H) (p : Fin W) (k : Fin K) (c : Fin C) :
    Host.gather (rows5 B N C H W K wf) x idx (ix5 b h p k c)
      = x (ix3 b (row N hN (idx (ix5 b h p k ⟨0, Nat.one_pos⟩))) c) := by
  have e0 : (rows5 B N C H W K wf).start (ix5 b h p k c) idx (0 : Fin 3) + (rows5 B N C H W K wf).batchCoord (ix5 b h p k c) (0 : Fin 3)
      + (rows5 B N C H W K wf).offCoord (ix5 b h p k c) (0 : Fin 3) = b.val := by
    rw [GatherDims.start_batching _ _ _ _ (List.mem_singleton.mpr rfl),
      GatherDims.offCoord_eq_zero _ _ _ (fun hh => ((GatherDims.mem_sKept _ _).mp hh).2 (List.mem_singleton.mpr rfl))]
    unfold GatherDims.batchCoord
    rw [dif_pos (show (0 : Fin 3) ∈ (rows5 B N C H W K wf).operandBatchingDims from List.mem_singleton.mpr rfl)]
    simp only [Nat.zero_add, Nat.add_zero]
    rfl
  have e1 : (rows5 B N C H W K wf).start (ix5 b h p k c) idx (1 : Fin 3) + (rows5 B N C H W K wf).batchCoord (ix5 b h p k c) (1 : Fin 3)
      + (rows5 B N C H W K wf).offCoord (ix5 b h p k c) (1 : Fin 3) = (row N hN (idx (ix5 b h p k ⟨0, Nat.one_pos⟩))).val := by
    rw [GatherDims.batchCoord_eq_zero _ _ _ (show (1 : Fin 3) ∉ ([0] : List (Fin 3)) by decide),
      GatherDims.offCoord_eq_zero _ _ _ (fun hh => ((GatherDims.mem_sKept _ _).mp hh).1 (List.mem_singleton.mpr rfl))]
    simp only [Nat.add_zero]
    unfold GatherDims.start
    rw [dif_pos (show (1 : Fin 3) ∈ (rows5 B N C H W K wf).startIndexMap from List.mem_singleton.mpr rfl)]
    have hsi : (rows5 B N C H W K wf).siIdx (ix5 b h p k c) ⟨List.idxOf (1 : Fin 3) (rows5 B N C H W K wf).startIndexMap,
        List.idxOf_lt_length_iff.2 (List.mem_singleton.mpr rfl)⟩ = ix5 b h p k ⟨0, Nat.one_pos⟩ := by
      funext q; refine Fin.ext ?_
      match q with
      | ⟨0, _⟩ => rfl
      | ⟨1, _⟩ => rfl
      | ⟨2, _⟩ => rfl
      | ⟨3, _⟩ => rfl
      | ⟨4, _⟩ => rfl
    rw [hsi]
    rfl
  have e2 : (rows5 B N C H W K wf).start (ix5 b h p k c) idx (2 : Fin 3) + (rows5 B N C H W K wf).batchCoord (ix5 b h p k c) (2 : Fin 3)
      + (rows5 B N C H W K wf).offCoord (ix5 b h p k c) (2 : Fin 3) = c.val := by
    rw [GatherDims.batchCoord_eq_zero _ _ _ (show (2 : Fin 3) ∉ ([0] : List (Fin 3)) by decide)]
    unfold GatherDims.start
    rw [dif_neg (show (2 : Fin 3) ∉ ([1] : List (Fin 3)) by decide)]
    unfold GatherDims.offCoord
    rw [dif_pos ((GatherDims.mem_sKept _ _).mpr ⟨(show (2 : Fin 3) ∉ ([1] : List (Fin 3)) by decide),
      (show (2 : Fin 3) ∉ ([0] : List (Fin 3)) by decide)⟩)]
    simp only [Nat.zero_add]
    rfl
  unfold Host.gather
  congr 1
  funext a
  refine Fin.ext ?_
  match a with
  | ⟨0, _⟩ => exact e0
  | ⟨1, _⟩ => exact e1
  | ⟨2, _⟩ => exact e2

end Idealize.ShloMosaic.BatchGather

end
-- ==== Proof.Interp.lean ====
/-
  Barycentric interpolation of per-vertex attributes over a rasterized image, as one function of the arrays.

  For a pixel `(b, h, p)` with vertex ids `Fc(b, h, p, k)`, `k = 0, 1, 2` (the three corners of the face the pixel
  shows), corner `k` reads the attribute row `vtx k`: the id counted from the end when negative (`wrap`), then clamped
  into `[0, 99999]` as a gather clamps its start index. The interpolated value in channel `d` is
  `(w₀·A(b, vtx 0, d) + w₁·A(b, vtx 1, d)) + w₂·A(b, vtx 2, d)` with `w_k = Wt(b, h, p, k)`.

  This file states that function (`interp`) and reads at an entry the layout operations through which the two
  programs reach it: a weight plane cut out of `Wt` (`plane`), the gathered rows of one corner laid out with the
  pixel and channel axes merged (`cornerRows`), a block of weights repeated along the channel axis (`spread`),
  and the split of the merged axis back into pixel and channel.
-/
import Idealize.ShloMosaic.Lib.Pipeline.Value
import Idealize.ShloMosaic.Lib.ValueIdx
import Idealize.ShloMosaic.Lib.ValueLayout
import Idealize.ShloMosaic.PureOps.Ideal
import proofs.«156141_j47845935678015_2_alg».proof.Proof.LibBatchGather

noncomputable section

namespace Cert.Bary

open Idealize.ShloMosaic Idealize.ShloMosaic.ValueIdx Idealize.ShloMosaic.BatchGather

/-! ## Shapes -/

abbrev S0 : Shape := ⟨0, ![]⟩
abbrev Sattr : Shape := ⟨3, ![2, 100000, 16]⟩
abbrev Spix3 : Shape := ⟨4, ![2, 1080, 1920, 3]⟩
abbrev Spix1 : Shape := ⟨4, ![2, 1080, 1920, 1]⟩
abbrev Spix : Shape := ⟨3, ![2, 1080, 1920]⟩
abbrev Sout : Shape := ⟨4, ![2, 1080, 1920, 16]⟩
abbrev Sflat : Shape := ⟨3, ![2, 1080, 30720]⟩
abbrev Bw : Shape := ⟨3, ![1, 24, 1920]⟩
abbrev Bw1 : Shape := ⟨4, ![1, 24, 1920, 1]⟩
abbrev Bw16 : Shape := ⟨4, ![1, 24, 1920, 16]⟩
abbrev Bflat : Shape := ⟨3, ![1, 24, 30720]⟩

/-! ## The interpolated image -/

/-- A negative index counts from the end of the 100000 rows. -/
def wrap (v : BitVec 32) : BitVec 32 :=
  Scalar.select (IntOp.cmpi .slt v 0#32) (IntOp.addi v 100000#32) v

/-- The attribute row corner `k` of pixel `(b, h, p)` reads. -/
def vtx (Fc : IVec Spix3 32) (b : Fin 2) (h : Fin 1080) (p : Fin 1920) (k : Fin 3) : Fin 100000 :=
  row 100000 (by decide) (wrap (Fc (ix4 b h p k)))

/-- Corner `k`'s weighted attribute in channel `d`. -/
def corner (A : FVec Ideal Sattr .f32) (Wt : FVec Ideal Spix3 .f32) (Fc : IVec Spix3 32)
    (b : Fin 2) (h : Fin 1080) (p : Fin 1920) (d : Fin 16) (k : Fin 3) : EReal :=
  Wt (ix4 b h p k) * A (ix3 b (vtx Fc b h p k) d)

/-- The interpolated image: the three corners' weighted attributes added, first two first. -/
def interp (A : FVec Ideal Sattr .f32) (Wt : FVec Ideal Spix3 .f32) (Fc : IVec Spix3 32) : FVec Ideal Sout .f32 :=
  fun i => (corner A Wt Fc (i 0) (i 1) (i 2) (i 3) 0 + corner A Wt Fc (i 0) (i 1) (i 2) (i 3) 1)
    + corner A Wt Fc (i 0) (i 1) (i 2) (i 3) 2

/-- The same image with the pixel and channel axes merged: position `j` of a row is pixel `j / 16`, channel `j % 16`. -/
def interpFlat (A : FVec Ideal Sattr .f32) (Wt : FVec Ideal Spix3 .f32) (Fc : IVec Spix3 32) : FVec Ideal Sflat .f32 :=
  fun i => interp A Wt Fc (ix4 (i 0) (i 1) ⟨(i 2).val / 16, by have h30720 : (i 2).val < 30720 := (i 2).isLt; omega⟩ ⟨(i 2).val % 16, Nat.mod_lt _ (by decide)⟩)

/-! ## Layout operations read at an entry -/

section Layout
variable {α : Type}

/-- A scalar broadcast to every pixel reads the scalar. -/
theorem splat_apply (h0 : S0.BroadcastsInDim Spix (![] : Fin 0 → Fin Spix.rank)) (y : S0.Idx → α) (i : Spix.Idx) :
    broadcastInDim Spix ![] h0 y i = y ix0 :=
  broadcastInDim_apply _ h0 y i ix0 (fun a => a.elim0)

/-- Plane `k` of a `[2, 1080, 1920, 3]` array: the slice at offset `k` of the last axis, its unit axis dropped. -/
def plane (off : Fin 4 → Nat) (hs : Spix3.Slices off Spix1) (hc : Spix1.ShapeCasts Spix) (X : Spix3.Idx → α) : Spix.Idx → α :=
  shapeCast Spix (extractStridedSlice Spix1 off X hs) hc

theorem plane_apply (k : Fin 3) (off : Fin 4 → Nat) (hoff : off = ![0, 0, 0, k.val]) (hs : Spix3.Slices off Spix1)
    (hc : Spix1.ShapeCasts Spix) (X : Spix3.Idx → α) (b : Fin 2) (h : Fin 1080) (p : Fin 1920) :
    plane off hs hc X (ix3 b h p) = X (ix4 b h p k) := by
  subst hoff
  unfold plane
  refine (shapeCast_apply _ hc (ix3 b h p) (ix4 b h p ⟨0, Nat.one_pos⟩) ?_).trans ?_
  · rw [Shape.rowMajor_val_four, Shape.rowMajor_val_three]
    show ((b.val * 1080 + h.val) * 1920 + p.val) * 1 + 0 = (b.val * 1080 + h.val) * 1920 + p.val
    omega
  · refine extractStridedSlice_apply _ X hs _ (ix4 b h p k) (fun a => ?_)
    match a with
    | ⟨0, _⟩ => show b.val = 0 + b.val; omega
    | ⟨1, _⟩ => show h.val = 0 + h.val; omega
    | ⟨2, _⟩ => show p.val = 0 + p.val; omega
    | ⟨3, _⟩ => show k.val = k.val + 0; omega

/-- Vertex ids counted from the end when negative, pixel by pixel. -/
def wrapVec (h0 : S0.BroadcastsInDim Spix (![] : Fin 0 → Fin Spix.rank)) (Fk : IVec Spix 32) : IVec Spix 32 :=
  select (cmpi .slt Fk (broadcastInDim Spix ![] h0 (constantI S0 32 0#32)))
    (addi Fk (broadcastInDim Spix ![] h0 (constantI S0 32 100000#32))) Fk

theorem wrapVec_apply (h0 : S0.BroadcastsInDim Spix (![] : Fin 0 → Fin Spix.rank)) (Fk : IVec Spix 32) (i : Spix.Idx) :
    wrapVec h0 Fk i = wrap (Fk i) := by
  unfold wrapVec wrap
  show Scalar.select (IntOp.cmpi .slt (Fk i) (broadcastInDim Spix ![] h0 (constantI S0 32 0#32) i))
      (IntOp.addi (Fk i) (broadcastInDim Spix ![] h0 (constantI S0 32 100000#32) i)) (Fk i) = _
  rw [splat_apply, splat_apply]
  rfl

/-- One corner's gathered attribute rows, the pixel and channel axes merged: the ids of plane `off` of `Fc`, counted
    from the end when negative, as start indices of the batched row gather from `A`. -/
def cornerRows (wf : GatherDims.WF Sattr Spix1 Sout [3] [1] [0] [1] [0] 3 ![1, 1, 16])
    (h0 : S0.BroadcastsInDim Spix (![] : Fin 0 → Fin Spix.rank))
    (hb : Spix.BroadcastsInDim Spix1 (![0, 1, 2] : Fin 3 → Fin Spix1.rank))
    (off : Fin 4 → Nat) (hs : Spix3.Slices off Spix1) (hc : Spix1.ShapeCasts Spix) (hm : Sout.ShapeCasts Sflat)
    (A : Sattr.Idx → α) (Fc : IVec Spix3 32) : Sflat.Idx → α :=
  shapeCast Sflat (Host.gather (rows4 2 100000 16 1080 1920 wf) A
    (broadcastInDim Spix1 ![0, 1, 2] hb (wrapVec h0 (plane off hs hc Fc)))) hm

theorem cornerRows_apply (k : Fin 3) (wf : GatherDims.WF Sattr Spix1 Sout [3] [1] [0] [1] [0] 3 ![1, 1, 16])
    (h0 : S0.BroadcastsInDim Spix (![] : Fin 0 → Fin Spix.rank))
    (hb : Spix.BroadcastsInDim Spix1 (![0, 1, 2] : Fin 3 → Fin Spix1.rank))
    (off : Fin 4 → Nat) (hoff : off = ![0, 0, 0, k.val]) (hs : Spix3.Slices off Spix1) (hc : Spix1.ShapeCasts Spix)
    (hm : Sout.ShapeCasts Sflat) (A : Sattr.Idx → α) (Fc : IVec Spix3 32)
    (b : Fin 2) (h : Fin 1080) (p : Fin 1920) (d : Fin 16) (j : Fin 30720) (hj : j.val = p.val * 16 + d.val) :
    cornerRows wf h0 hb off hs hc hm A Fc (ix3 b h j) = A (ix3 b (vtx Fc b h p k) d) := by
  unfold cornerRows
  refine (shapeCast_apply _ hm (ix3 b h j) (ix4 b h p d) ?_).trans ?_
  · rw [Shape.rowMajor_val_four, Shape.rowMajor_val_three]
    show ((b.val * 1080 + h.val) * 1920 + p.val) * 16 + d.val = (b.val * 1080 + h.val) * 30720 + j.val
    omega
  rw [rows4_apply (by decide : 0 < 100000)]
  unfold vtx
  congr 3
  refine (broadcastInDim_apply _ hb _ (ix4 b h p ⟨0, Nat.one_pos⟩) (ix3 b h p) (fun a => ?_)).trans ?_
  · match a with
    | ⟨0, _⟩ => show b.val = if (2 : Nat) = 1 then 0 else b.val; rw [if_neg (by decide)]
    | ⟨1, _⟩ => show h.val = if (1080 : Nat) = 1 then 0 else h.val; rw [if_neg (by decide)]
    | ⟨2, _⟩ => show p.val = if (1920 : Nat) = 1 then 0 else p.val; rw [if_neg (by decide)]
  rw [wrapVec_apply, plane_apply k off hoff]

/-- A block of weights `[1, 24, 1920]` given a unit channel axis, repeated 16 times along it, the pixel and channel
    axes then merged: position `j` of row `r` reads the weight of pixel `j / 16`. -/
theorem spread_apply (v : Bw.Idx → α) (h1 : Bw.ShapeCasts Bw1) (hb : Bw1.Broadcasts Bw16)
    (hc : Bw16.ShapeCasts Bflat) (r : Fin 24) (q : Fin 1920) (d : Fin 16) (j : Fin 30720) (hj : j.val = q.val * 16 + d.val) :
    shapeCast Bflat (broadcastTo Bw16 (shapeCast Bw1 v h1) hb) hc (ix3 ⟨0, Nat.one_pos⟩ r j)
      = v (ix3 ⟨0, Nat.one_pos⟩ r q) := by
  refine (shapeCast_apply _ hc _ (ix4 ⟨0, Nat.one_pos⟩ r q d) ?_).trans ?_
  · rw [Shape.rowMajor_val_four, Shape.rowMajor_val_three]
    show ((0 * 24 + r.val) * 1920 + q.val) * 16 + d.val = (0 * 24 + r.val) * 30720 + j.val
    omega
  refine (broadcastTo_apply _ hb _ (ix4 ⟨0, Nat.one_pos⟩ r q ⟨0, Nat.one_pos⟩) (fun a => ?_)).trans ?_
  · match a with
    | ⟨0, _⟩ => show 0 = if (1 : Nat) = 1 then 0 else 0; rw [if_pos rfl]
    | ⟨1, _⟩ => show r.val = if (24 : Nat) = 1 then 0 else r.val; rw [if_neg (by decide)]
    | ⟨2, _⟩ => show q.val = if (1920 : Nat) = 1 then 0 else q.val; rw [if_neg (by decide)]
    | ⟨3, _⟩ => show 0 = if (1 : Nat) = 1 then 0 else d.val; rw [if_pos rfl]
  refine shapeCast_apply _ h1 _ (ix3 ⟨0, Nat.one_pos⟩ r q) ?_
  rw [Shape.rowMajor_val_four, Shape.rowMajor_val_three]
  show (0 * 24 + r.val) * 1920 + q.val = ((0 * 24 + r.val) * 1920 + q.val) * 1 + 0
  omega

/-- The merged axis split back into pixel and channel: entry `(b, h, p, d)` reads position `p·16 + d` of row `(b, h)`. -/
theorem split_apply (X : Sflat.Idx → α) (hsp : Sflat.ShapeCasts Sout) (b : Fin 2) (h : Fin 1080) (p : Fin 1920) (d : Fin 16) :
    shapeCast Sout X hsp (ix4 b h p d) = X (ix3 b h ⟨p.val * 16 + d.val, by omega⟩) := by
  refine shapeCast_apply _ hsp _ _ ?_
  rw [Shape.rowMajor_val_four, Shape.rowMajor_val_three]
  show (b.val * 1080 + h.val) * 30720 + (p.val * 16 + d.val) = ((b.val * 1080 + h.val) * 1920 + p.val) * 16 + d.val
  omega

end Layout

/-- The merged image split back is the image. -/
theorem split_interpFlat (A : FVec Ideal Sattr .f32) (Wt : FVec Ideal Spix3 .f32) (Fc : IVec Spix3 32)
    (hsp : Sflat.ShapeCasts Sout) : shapeCast Sout (interpFlat A Wt Fc) hsp = interp A Wt Fc := by
  funext i
  obtain ⟨b, h, p, d, rfl⟩ : ∃ (b : Fin 2) (h : Fin 1080) (p : Fin 1920) (d : Fin 16), i = ix4 b h p d :=
    ⟨i 0, i 1, i 2, i 3, eq_ix4 i⟩
  rw [split_apply]
  unfold interpFlat
  have hp : (⟨(p.val * 16 + d.val) / 16, by omega⟩ : Fin 1920) = p := Fin.ext (by show (p.val * 16 + d.val) / 16 = p.val; omega)
  have hd : (⟨(p.val * 16 + d.val) % 16, Nat.mod_lt _ (by decide)⟩ : Fin 16) = d := Fin.ext (by show (p.val * 16 + d.val) % 16 = d.val; omega)
  show interp A Wt Fc (ix4 b h ⟨(p.val * 16 + d.val) / 16, _⟩ ⟨(p.val * 16 + d.val) % 16, _⟩) = _
  rw [hp, hd]

end Cert.Bary

end
-- ==== Proof.KernelBlocks.lean ====
/-
  From the kernel's blocks to its output array.

  At grid point `(b, i)` the body multiplies each of the three weight blocks (rows `24·i … 24·i + 23` of image `b`),
  repeated 16 times along the channel axis, into the matching block of gathered attribute rows, and adds the three
  products, first two first. Every block is the restriction of one whole-array function (`combine`) of the six staged
  arrays, and the 2 × 45 blocks tile the output, so the output array ends holding `combine`.
-/
import proofs.«156141_j47845935678015_2_alg».proof.Proof.Gen.KernelIdeal.Frame
import proofs.«156141_j47845935678015_2_alg».proof.Proof.Interp
import Idealize.ShloMosaic.Lib.Pipeline.Value

set_option maxRecDepth 16384

noncomputable section

namespace Cert.KernelIdeal.Hand

open Cert.KernelIdeal Cert.KernelIdeal.Gen Cert.Bary
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl

/-- The output as one function of the six staged arrays: at position `j` of row `(b, h)` the weights of pixel
    `j / 16` times the three attribute arrays' entries at `j`, added first two first. -/
def combine (w0 w1 w2 : S2x1080x1920.Idx → EReal) (a0 a1 a2 : S2x1080x30720.Idx → EReal) : S2x1080x30720.Idx → EReal :=
  fun i => (w0 (ix3 (i 0) (i 1) ⟨(i 2).val / 16, by have h30720 : (i 2).val < 30720 := (i 2).isLt; omega⟩) * a0 i
      + w1 (ix3 (i 0) (i 1) ⟨(i 2).val / 16, by have h30720 : (i 2).val < 30720 := (i 2).isLt; omega⟩) * a1 i)
    + w2 (ix3 (i 0) (i 1) ⟨(i 2).val / 16, by have h30720 : (i 2).val < 30720 := (i 2).isLt; omega⟩) * a2 i

/-- The body's stored value at position `j = 16·q + d` of row `r` of its block. -/
theorem pay_apply (x0 x1 x2 : Vec Ideal S1x24x1920 .f32) (x3 x4 x5 : Vec Ideal S1x24x30720 .f32)
    (r : Fin 24) (q : Fin 1920) (d : Fin 16) (j : Fin 30720) (hj : j.val = q.val * 16 + d.val) :
    k0_pay1 x0 x1 x2 x3 x4 x5 (ix3 ⟨0, Nat.one_pos⟩ r j)
      = (x0 (ix3 ⟨0, Nat.one_pos⟩ r q) * x3 (ix3 ⟨0, Nat.one_pos⟩ r j) + x1 (ix3 ⟨0, Nat.one_pos⟩ r q) * x4 (ix3 ⟨0, Nat.one_pos⟩ r j))
        + x2 (ix3 ⟨0, Nat.one_pos⟩ r q) * x5 (ix3 ⟨0, Nat.one_pos⟩ r j) := by
  unfold k0_pay1
  rw [addf_apply, addf_apply, mulf_apply, mulf_apply, mulf_apply]
  simp only [shapeCast_self]
  rw [spread_apply x0 _ _ _ r q d j hj, spread_apply x1 _ _ _ r q d j hj, spread_apply x2 _ _ _ r q d j hj]

/-- The printed index maps over the grid: all seven windows move together, and none moves along the last axis. -/
theorem idx_facts : ∀ t : Fin cfg0.N,
    win0_0.index t (0 : Fin 3) = win0_6.index t (0 : Fin 3) ∧ win0_0.index t (1 : Fin 3) = win0_6.index t (1 : Fin 3) ∧ win0_0.index t (2 : Fin 3) = 0
    ∧ win0_1.index t (0 : Fin 3) = win0_6.index t (0 : Fin 3) ∧ win0_1.index t (1 : Fin 3) = win0_6.index t (1 : Fin 3) ∧ win0_1.index t (2 : Fin 3) = 0
    ∧ win0_2.index t (0 : Fin 3) = win0_6.index t (0 : Fin 3) ∧ win0_2.index t (1 : Fin 3) = win0_6.index t (1 : Fin 3) ∧ win0_2.index t (2 : Fin 3) = 0
    ∧ win0_3.index t (0 : Fin 3) = win0_6.index t (0 : Fin 3) ∧ win0_3.index t (1 : Fin 3) = win0_6.index t (1 : Fin 3) ∧ win0_3.index t (2 : Fin 3) = 0
    ∧ win0_4.index t (0 : Fin 3) = win0_6.index t (0 : Fin 3) ∧ win0_4.index t (1 : Fin 3) = win0_6.index t (1 : Fin 3) ∧ win0_4.index t (2 : Fin 3) = 0
    ∧ win0_5.index t (0 : Fin 3) = win0_6.index t (0 : Fin 3) ∧ win0_5.index t (1 : Fin 3) = win0_6.index t (1 : Fin 3) ∧ win0_5.index t (2 : Fin 3) = 0
    ∧ win0_6.index t (0 : Fin 3) ≤ 1 ∧ win0_6.index t (1 : Fin 3) ≤ 44 ∧ win0_6.index t (2 : Fin 3) = 0 :=
  (by decide +kernel : ∀ t : Fin grid0.N, _)

/-- Every block of the output is some point's. -/
theorem idx_onto : ∀ (q0 : Fin 2) (q1 : Fin 45), ∃ t : Fin cfg0.N, win0_6.index t = ![q0.val, q1.val, 0] :=
  (by decide +kernel : ∀ (q0 : Fin 2) (q1 : Fin 45), ∃ t : Fin grid0.N, win0_6.index t = ![q0.val, q1.val, 0])

set_option maxHeartbeats 4000000 in
/-- What point `t` writes back is its block of `combine` of the six staged arrays as the region finds them. -/
theorem flushed6_eq (c : Dev nD) (t : Fin cfg0.N) :
    (dats m 0 c).flushed 6 t = ((cfg0.win 6).blk t).view.read (Elt Ideal)
      (combine (V m c main_v35) (V m c main_v37) (V m c main_v39) (V m c main_v40) (V m c main_v41) (V m c main_v42)) := by
  show (cfg0.win 6).cut (grid0.coords t) ((dats m 0 c).after 6 t) = _
  rw [after0_6]
  unfold out0_6
  rw [View.canon_unit_zero hz3]
  simp only [View.ld_unit_zero (S := S1x24x1920) hz3, View.ld_unit_zero (S := S1x24x30720) hz3]
  obtain ⟨a00, a01, a02, a10, a11, a12, a20, a21, a22, a30, a31, a32, a40, a41, a42, a50, a51, a52, b0, b1, b2⟩ := idx_facts t
  refine funext fun (y : S1x24x30720.Idx) => ?_
  obtain ⟨z, r, j, rfl⟩ : ∃ (z : Fin 1) (r : Fin 24) (j : Fin 30720), y = ix3 z r j := ⟨y 0, y 1, y 2, eq_ix3 y⟩
  obtain rfl : z = ⟨0, Nat.one_pos⟩ := Subsingleton.elim _ _
  have hj30720 : j.val < 30720 := j.isLt
  refine (pay_apply (iblk m c 0 t) (iblk m c 1 t) (iblk m c 2 t) (iblk m c 3 t) (iblk m c 4 t) (iblk m c 5 t) r
    ⟨j.val / 16, by omega⟩ ⟨j.val % 16, Nat.mod_lt _ (by decide)⟩ j (by show j.val = j.val / 16 * 16 + j.val % 16; omega)).trans ?_
  rw [View.read_apply]
  generalize hE : ((cfg0.win 6).blk t).view.emb (ix3 ⟨0, Nat.one_pos⟩ r j) = E
  have hE0 : (E 0).val = win0_6.index t (0 : Fin 3) * 1 + 1 * 0 := by rw [← hE]; rfl
  have hE1 : (E 1).val = win0_6.index t (1 : Fin 3) * 24 + 1 * r.val := by rw [← hE]; rfl
  have hE2 : (E 2).val = win0_6.index t (2 : Fin 3) * 30720 + 1 * j.val := by rw [← hE]; rfl
  have hw0 : iblk m c 0 t (ix3 ⟨0, Nat.one_pos⟩ r ⟨j.val / 16, by omega⟩)
      = V m c main_v35 (ix3 (E 0) (E 1) ⟨(E 2).val / 16, by have h30720 : (E 2).val < 30720 := (E 2).isLt; omega⟩) := by
    unfold iblk
    rw [View.read_apply]
    refine congrArg (V m c main_v35) (funext fun a => Fin.ext ?_)
    match a with
    | ⟨0, _⟩ => show win0_0.index t (0 : Fin 3) * 1 + 1 * 0 = (E 0).val; omega
    | ⟨1, _⟩ => show win0_0.index t (1 : Fin 3) * 24 + 1 * r.val = (E 1).val; omega
    | ⟨2, _⟩ => show win0_0.index t (2 : Fin 3) * 1920 + 1 * (j.val / 16) = (E 2).val / 16; omega
  have hw1 : iblk m c 1 t (ix3 ⟨0, Nat.one_pos⟩ r ⟨j.val / 16, by omega⟩)
      = V m c main_v37 (ix3 (E 0) (E 1) ⟨(E 2).val / 16, by have h30720 : (E 2).val < 30720 := (E 2).isLt; omega⟩) := by
    unfold iblk
    rw [View.read_apply]
    refine congrArg (V m c main_v37) (funext fun a => Fin.ext ?_)
    match a with
    | ⟨0, _⟩ => show win0_1.index t (0 : Fin 3) * 1 + 1 * 0 = (E 0).val; omega
    | ⟨1, _⟩ => show win0_1.index t (1 : Fin 3) * 24 + 1 * r.val = (E 1).val; omega
    | ⟨2, _⟩ => show win0_1.index t (2 : Fin 3) * 1920 + 1 * (j.val / 16) = (E 2).val / 16; omega
  have hw2 : iblk m c 2 t (ix3 ⟨0, Nat.one_pos⟩ r ⟨j.val / 16, by omega⟩)
      = V m c main_v39 (ix3 (E 0) (E 1) ⟨(E 2).val / 16, by have h30720 : (E 2).val < 30720 := (E 2).isLt; omega⟩) := by
    unfold iblk
    rw [View.read_apply]
    refine congrArg (V m c main_v39) (funext fun a => Fin.ext ?_)
    match a with
    | ⟨0, _⟩ => show win0_2.index t (0 : Fin 3) * 1 + 1 * 0 = (E 0).val; omega
    | ⟨1, _⟩ => show win0_2.index t (1 : Fin 3) * 24 + 1 * r.val = (E 1).val; omega
    | ⟨2, _⟩ => show win0_2.index t (2 : Fin 3) * 1920 + 1 * (j.val / 16) = (E 2).val / 16; omega
  have hw3 : iblk m c 3 t (ix3 ⟨0, Nat.one_pos⟩ r j) = V m c main_v40 E := by
    unfold iblk
    rw [View.read_apply]
    refine congrArg (V m c main_v40) (funext fun a => Fin.ext ?_)
    match a with
    | ⟨0, _⟩ => show win0_3.index t (0 : Fin 3) * 1 + 1 * 0 = (E 0).val; omega
    | ⟨1, _⟩ => show win0_3.index t (1 : Fin 3) * 24 + 1 * r.val = (E 1).val; omega
    | ⟨2, _⟩ => show win0_3.index t (2 : Fin 3) * 30720 + 1 * j.val = (E 2).val; omega
  have hw4 : iblk m c 4 t (ix3 ⟨0, Nat.one_pos⟩ r j) = V m c main_v41 E := by
    unfold iblk
    rw [View.read_apply]
    refine congrArg (V m c main_v41) (funext fun a => Fin.ext ?_)
    match a with
    | ⟨0, _⟩ => show win0_4.index t (0 : Fin 3) * 1 + 1 * 0 = (E 0).val; omega
    | ⟨1, _⟩ => show win0_4.index t (1 : Fin 3) * 24 + 1 * r.val = (E 1).val; omega
    | ⟨2, _⟩ => show win0_4.index t (2 : Fin 3) * 30720 + 1 * j.val = (E 2).val; omega
  have hw5 : iblk m c 5 t (ix3 ⟨0, Nat.one_pos⟩ r j) = V m c main_v42 E := by
    unfold iblk
    rw [View.read_apply]
    refine congrArg (V m c main_v42) (funext fun a => Fin.ext ?_)
    match a with
    | ⟨0, _⟩ => show win0_5.index t (0 : Fin 3) * 1 + 1 * 0 = (E 0).val; omega
    | ⟨1, _⟩ => show win0_5.index t (1 : Fin 3) * 24 + 1 * r.val = (E 1).val; omega
    | ⟨2, _⟩ => show win0_5.index t (2 : Fin 3) * 30720 + 1 * j.val = (E 2).val; omega
  rw [hw0, hw1, hw2, hw3, hw4, hw5]
  rfl

/-- An index of the output array is in point `t`'s block iff each coordinate is in the block's range on its axis. -/
theorem mem_blk6 (t : Fin cfg0.N) (i : S2x1080x30720.Idx) :
    i ∈ ((cfg0.win 6).blk t).view.set ↔ ∀ a : Fin 3, win0_6.index t a * S1x24x30720.size a ≤ (i a).val
      ∧ (i a).val < win0_6.index t a * S1x24x30720.size a + S1x24x30720.size a := by
  show i ∈ ((View.whole main_v43).slice (win0_6.rect t)).set ↔ _
  rw [View.set_slice_whole, Rect.mem_set_unit]
  exact Iff.rfl

/-- The blocks tile the output: row `h` of image `b` is in the block of point `(b, h / 24)`. -/
theorem cover6 (i : S2x1080x30720.Idx) :
    ∃ t : Fin cfg0.N, (cfg0.win 6).flush t = true ∧ i ∈ ((cfg0.win 6).blk t).view.set := by
  have hi0 : (i 0).val < 2 := (i 0).isLt
  have hi1 : (i 1).val < 1080 := (i 1).isLt
  have hi2 : (i 2).val < 30720 := (i 2).isLt
  obtain ⟨t, ht⟩ := idx_onto ⟨(i 0).val, hi0⟩ ⟨(i 1).val / 24, by omega⟩
  have q0 : win0_6.index t (0 : Fin 3) = (i 0).val := congrFun ht 0
  have q1 : win0_6.index t (1 : Fin 3) = (i 1).val / 24 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 24 ≤ (i 1).val ∧ (i 1).val < win0_6.index t (1 : Fin 3) * 24 + 24; omega
  | ⟨2, _⟩ => show win0_6.index t (2 : Fin 3) * 30720 ≤ (i 2).val ∧ (i 2).val < win0_6.index t (2 : Fin 3) * 30720 + 30720; omega

/-- The output array after the region: `combine` of the six staged arrays as the region finds them. -/
theorem final6 (c : Dev nD) : (dats m 0 c).arrAt 6 cfg0.N
    = combine (V m c main_v35) (V m c main_v37) (V m c main_v39) (V m c main_v40) (V m c main_v41) (V m c main_v42) :=
  (dats m 0 c).arrAt_eq_of_cover 6 _ (fun t _ => flushed6_eq m c t) cover6

end Cert.KernelIdeal.Hand

end
-- ==== Proof.KernelEntry.lean ====
/-
  What the kernel's region finds in the arrays its windows stage: each as a term of @main's arguments.

  The three weight planes are planes 0, 1, 2 of the barycentric coordinates; the three attribute arrays are the rows
  of `attributes` gathered at the vertex ids of planes 0, 1, 2 of `faces[pix_to_face]`, the pixel and channel axes merged.
-/
import proofs.«156141_j47845935678015_2_alg».proof.Proof.Gen.KernelIdeal.Frame
import proofs.«156141_j47845935678015_2_alg».proof.Proof.Interp
import Idealize.ShloMosaic.Lib.StableHlo.Run

set_option maxRecDepth 16384

noncomputable section

namespace Cert.KernelIdeal.Hand

open Cert.KernelIdeal Cert.KernelIdeal.Gen Cert.Bary
open Idealize.ShloMosaic Idealize.ShloMosaic.TcCoe Idealize.SL.Sem Idealize.ShloMosaic.StableHlo

variable (m : (ℓ : Loc nD τ sig) → Buf (Elt Ideal) ℓ)

/-- `faces[pix_to_face]`: the face index counted from the end when negative, then the row gather of its three vertex ids. -/
def faceIds (x2 : IVec S200000x3 32) (x3 : IVec S2x1080x1920 32) : IVec S2x1080x1920x3 32 :=
  Host.gather gather_S200000x3_S2x1080x1920x1_S2x1080x1920x3_3_0_n_n_0_3_13 x2
    (broadcastInDim S2x1080x1920x1 ![0, 1, 2] bcast_S2x1080x1920_S2x1080x1920x1_0_1_2
      (select (cmpi .slt x3 (broadcastInDim S2x1080x1920 ![] bcast_S_S2x1080x1920 (constantI S_ 32 0#32)))
        (addi x3 (broadcastInDim S2x1080x1920 ![] bcast_S_S2x1080x1920 (constantI S_ 32 200000#32))) x3))

/-- The vertex ids of the launch memory. -/
abbrev ids (c : Dev nD) : IVec S2x1080x1920x3 32 :=
  faceIds (m ((c : Thread nD τ).loc main_arg2)) (m ((c : Thread nD τ).loc main_arg3))

/-- The weight array of window 0 is plane 0 of the barycentric coordinates. -/
theorem V_weights0 (c : Dev nD) : (V m c main_v35 : S2x1080x1920.Idx → EReal)
    = plane ![0, 0, 0, 0] slices_S2x1080x1920x3_S2x1080x1920x1_0_0_0_0 shapeCasts_S2x1080x1920x1_S2x1080x1920
        (m ((c : Thread nD τ).loc main_arg1)) := by
  show StableHlo.after hostOps0 (fun b => m (c, b)) (Proc.devRef .tc main_v35) = _
  after_results
  rfl

/-- The weight array of window 1 is plane 1 of the barycentric coordinates. -/
theorem V_weights1 (c : Dev nD) : (V m c main_v37 : S2x1080x1920.Idx → EReal)
    = plane ![0, 0, 0, 1] slices_S2x1080x1920x3_S2x1080x1920x1_0_0_0_1 shapeCasts_S2x1080x1920x1_S2x1080x1920
        (m ((c : Thread nD τ).loc main_arg1)) := by
  show StableHlo.after hostOps0 (fun b => m (c, b)) (Proc.devRef .tc main_v37) = _
  after_results
  rfl

/-- The weight array of window 2 is plane 2 of the barycentric coordinates. -/
theorem V_weights2 (c : Dev nD) : (V m c main_v39 : S2x1080x1920.Idx → EReal)
    = plane ![0, 0, 0, 2] slices_S2x1080x1920x3_S2x1080x1920x1_0_0_0_2 shapeCasts_S2x1080x1920x1_S2x1080x1920
        (m ((c : Thread nD τ).loc main_arg1)) := by
  show StableHlo.after hostOps0 (fun b => m (c, b)) (Proc.devRef .tc main_v39) = _
  after_results
  rfl

end Cert.KernelIdeal.Hand

end
-- ==== Proof.KernelRows0.lean ====
/-
  What the kernel's region finds in the array of window 3: the rows of `attributes` gathered at the vertex ids
  of corner 0 of each pixel's face, the pixel and channel axes merged.
-/
import proofs.«156141_j47845935678015_2_alg».proof.Proof.KernelEntry

set_option maxRecDepth 16384

noncomputable section

namespace Cert.KernelIdeal.Hand

open Cert.KernelIdeal Cert.KernelIdeal.Gen Cert.Bary
open Idealize.ShloMosaic Idealize.ShloMosaic.TcCoe Idealize.SL.Sem Idealize.ShloMosaic.StableHlo

variable (m : (ℓ : Loc nD τ sig) → Buf (Elt Ideal) ℓ)

set_option maxHeartbeats 4000000 in
/-- The attribute array of window 3: corner 0's gathered rows, as a term of `attributes` and `faces[pix_to_face]`. -/
theorem V_rows0 (c : Dev nD) : (V m c main_v40 : S2x1080x30720.Idx → EReal)
    = cornerRows gather_S2x100000x16_S2x1080x1920x1_S2x1080x1920x16_3_1_0_0_1_3_1116_wf bcast_S_S2x1080x1920
        bcast_S2x1080x1920_S2x1080x1920x1_0_1_2 ![0, 0, 0, 0] slices_S2x1080x1920x3_S2x1080x1920x1_0_0_0_0
        shapeCasts_S2x1080x1920x1_S2x1080x1920 shapeCasts_S2x1080x1920x16_S2x1080x30720
        (m ((c : Thread nD τ).loc main_arg0)) (ids m c) := by
  show StableHlo.after hostOps0 (fun b => m (c, b)) (Proc.devRef .tc main_v40) = _
  after_results
  rfl

end Cert.KernelIdeal.Hand

end
-- ==== Proof.KernelRows1.lean ====
/-
  What the kernel's region finds in the array of window 4: the rows of `attributes` gathered at the vertex ids
  of corner 1 of each pixel's face, the pixel and channel axes merged.
-/
import proofs.«156141_j47845935678015_2_alg».proof.Proof.KernelEntry

set_option maxRecDepth 16384

noncomputable section

namespace Cert.KernelIdeal.Hand

open Cert.KernelIdeal Cert.KernelIdeal.Gen Cert.Bary
open Idealize.ShloMosaic Idealize.ShloMosaic.TcCoe Idealize.SL.Sem Idealize.ShloMosaic.StableHlo

variable (m : (ℓ : Loc nD τ sig) → Buf (Elt Ideal) ℓ)

set_option maxHeartbeats 4000000 in
/-- The attribute array of window 4: corner 1's gathered rows, as a term of `attributes` and `faces[pix_to_face]`. -/
theorem V_rows1 (c : Dev nD) : (V m c main_v41 : S2x1080x30720.Idx → EReal)
    = cornerRows gather_S2x100000x16_S2x1080x1920x1_S2x1080x1920x16_3_1_0_0_1_3_1116_wf bcast_S_S2x1080x1920
        bcast_S2x1080x1920_S2x1080x1920x1_0_1_2 ![0, 0, 0, 1] slices_S2x1080x1920x3_S2x1080x1920x1_0_0_0_1
        shapeCasts_S2x1080x1920x1_S2x1080x1920 shapeCasts_S2x1080x1920x16_S2x1080x30720
        (m ((c : Thread nD τ).loc main_arg0)) (ids m c) := by
  show StableHlo.after hostOps0 (fun b => m (c, b)) (Proc.devRef .tc main_v41) = _
  after_results
  rfl

end Cert.KernelIdeal.Hand

end
-- ==== Proof.KernelRows2.lean ====
/-
  What the kernel's region finds in the array of window 5: the rows of `attributes` gathered at the vertex ids
  of corner 2 of each pixel's face, the pixel and channel axes merged.
-/
import proofs.«156141_j47845935678015_2_alg».proof.Proof.KernelEntry

set_option maxRecDepth 16384

noncomputable section

namespace Cert.KernelIdeal.Hand

open Cert.KernelIdeal Cert.KernelIdeal.Gen Cert.Bary
open Idealize.ShloMosaic Idealize.ShloMosaic.TcCoe Idealize.SL.Sem Idealize.ShloMosaic.StableHlo

variable (m : (ℓ : Loc nD τ sig) → Buf (Elt Ideal) ℓ)

set_option maxHeartbeats 4000000 in
/-- The attribute array of window 5: corner 2's gathered rows, as a term of `attributes` and `faces[pix_to_face]`. -/
theorem V_rows2 (c : Dev nD) : (V m c main_v42 : S2x1080x30720.Idx → EReal)
    = cornerRows gather_S2x100000x16_S2x1080x1920x1_S2x1080x1920x16_3_1_0_0_1_3_1116_wf bcast_S_S2x1080x1920
        bcast_S2x1080x1920_S2x1080x1920x1_0_1_2 ![0, 0, 0, 2] slices_S2x1080x1920x3_S2x1080x1920x1_0_0_0_2
        shapeCasts_S2x1080x1920x1_S2x1080x1920 shapeCasts_S2x1080x1920x16_S2x1080x30720
        (m ((c : Thread nD τ).loc main_arg0)) (ids m c) := by
  show StableHlo.after hostOps0 (fun b => m (c, b)) (Proc.devRef .tc main_v42) = _
  after_results
  rfl

end Cert.KernelIdeal.Hand

end
-- ==== Proof.KernelValue.lean ====
/-
  The kernel's two results, read off the run of @main around its region.

  After the region two host lines remain: the output array `[2, 1080, 30720]` is split back into pixel and channel
  axes, and the validity mask compares `pix_to_face` with -1. The region's output array is `combine` of the six
  staged arrays, which is the interpolated image with its last two axes merged; so the first result is the
  interpolated image of the launch memory's arguments.
-/
import proofs.«156141_j47845935678015_2_alg».proof.Proof.KernelBlocks
import proofs.«156141_j47845935678015_2_alg».proof.Proof.KernelEntry
import proofs.«156141_j47845935678015_2_alg».proof.Proof.KernelRows0
import proofs.«156141_j47845935678015_2_alg».proof.Proof.KernelRows1
import proofs.«156141_j47845935678015_2_alg».proof.Proof.KernelRows2
import Idealize.ShloMosaic.Lib.StableHlo.Run

set_option maxRecDepth 16384

noncomputable section

namespace Cert.KernelIdeal.Hand

open Cert.KernelIdeal Cert.KernelIdeal.Gen Cert.Bary
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-- `combine` at position `j` of row `(b, h)`, the pixel `j / 16` named. -/
theorem combine_apply (w0 w1 w2 : S2x1080x1920.Idx → EReal) (a0 a1 a2 : S2x1080x30720.Idx → EReal)
    (b : Fin 2) (h : Fin 1080) (j : Fin 30720) (p : Fin 1920) (hp : p.val = j.val / 16) :
    combine w0 w1 w2 a0 a1 a2 (ix3 b h j)
      = (w0 (ix3 b h p) * a0 (ix3 b h j) + w1 (ix3 b h p) * a1 (ix3 b h j)) + w2 (ix3 b h p) * a2 (ix3 b h j) := by
  obtain ⟨pv, hpv⟩ := p
  obtain rfl : pv = j.val / 16 := hp
  rfl

/-- `combine` of the six staged arrays is the interpolated image with its pixel and channel axes merged: each weight
    array is a plane of the barycentric coordinates, each attribute array the gathered rows of one corner. -/
theorem combine_eq (c : Dev nD) :
    combine (V m c main_v35) (V m c main_v37) (V m c main_v39) (V m c main_v40) (V m c main_v41) (V m c main_v42)
      = interpFlat (m ((c : Thread nD τ).loc main_arg0)) (m ((c : Thread nD τ).loc main_arg1)) (ids m c) := by
  rw [V_weights0 m c, V_weights1 m c, V_weights2 m c, V_rows0 m c, V_rows1 m c, V_rows2 m c]
  funext i
  obtain ⟨b, h, j, rfl⟩ : ∃ (b : Fin 2) (h : Fin 1080) (j : Fin 30720), i = ix3 b h j := ⟨i 0, i 1, i 2, eq_ix3 i⟩
  have hj30720 : j.val < 30720 := j.isLt
  rw [combine_apply _ _ _ _ _ _ b h j ⟨j.val / 16, by omega⟩ rfl]
  rw [plane_apply 0 ![0, 0, 0, 0] rfl, plane_apply 1 ![0, 0, 0, 1] rfl, plane_apply 2 ![0, 0, 0, 2] rfl]
  rw [cornerRows_apply 0 _ _ _ ![0, 0, 0, 0] rfl _ _ _ _ _ b h ⟨j.val / 16, by omega⟩ ⟨j.val % 16, Nat.mod_lt _ (by decide)⟩ j
        (by show j.val = j.val / 16 * 16 + j.val % 16; omega),
    cornerRows_apply 1 _ _ _ ![0, 0, 0, 1] rfl _ _ _ _ _ b h ⟨j.val / 16, by omega⟩ ⟨j.val % 16, Nat.mod_lt _ (by decide)⟩ j
        (by show j.val = j.val / 16 * 16 + j.val % 16; omega),
    cornerRows_apply 2 _ _ _ ![0, 0, 0, 2] rfl _ _ _ _ _ b h ⟨j.val / 16, by omega⟩ ⟨j.val % 16, Nat.mod_lt _ (by decide)⟩ j
        (by show j.val = j.val / 16 * 16 + j.val % 16; omega)]
  rfl

/-- The first result after the tail: the region's output array with its last axis split. -/
theorem tail_image (c : Dev nD) :
    (Pipeline.afterTail₀ cfgs (dats m) 0 (V0 m) [hostOps1] c main_v44 : S2x1080x1920x16.Idx → EReal)
      = shapeCast S2x1080x1920x16 ((dats m 0 c).arrAt 6 cfg0.N) shapeCasts_S2x1080x30720_S2x1080x1920x16 := by
  unfold Pipeline.afterTail₀
  show StableHlo.after hostOps1 _ (Proc.devRef .tc main_v44) = _
  after_results
  have hW : Pipeline.withArrays (cfgs 0).spec c (V0 m c) (fun w => (dats m 0 c).arrAt w (cfgs 0).N) (Proc.devRef .tc main_v43)
      = (dats m 0 c).arrAt 6 cfg0.N := Pipeline.withArrays_arr spec0 launch0.win.arr_inj c _ _ 6
  exact congrArg (fun X => shapeCast S2x1080x1920x16 X shapeCasts_S2x1080x30720_S2x1080x1920x16) hW

/-- The second result after the tail: `pix_to_face ≠ -1`, pixel by pixel. -/
theorem tail_mask (c : Dev nD) :
    (Pipeline.afterTail₀ cfgs (dats m) 0 (V0 m) [hostOps1] c main_v46 : S2x1080x1920.Idx → BitVec 1)
      = cmpi .ne (m ((c : Thread nD τ).loc main_arg3)) (broadcastInDim S2x1080x1920 ![] bcast_S_S2x1080x1920 (constantI S_ 32 4294967295#32)) := by
  unfold Pipeline.afterTail₀
  show StableHlo.after hostOps1 _ (Proc.devRef .tc main_v46) = _
  after_results
  rw [Pipeline.withArrays_of_ne _ c (V0 m c) _ main_arg3 (by exact (by decide : ∀ w, Pipeline.arrRef spec0 w ≠ main_arg3))]
  exact congrArg (fun X => cmpi .ne X (broadcastInDim S2x1080x1920 ![] bcast_S_S2x1080x1920 (constantI S_ 32 4294967295#32)))
    (V_main_arg3 m c)

/-- The image result is the interpolated image of the arguments. -/
theorem image_eq (c : Dev nD) :
    (Pipeline.afterTail₀ cfgs (dats m) 0 (V0 m) [hostOps1] c main_v44 : S2x1080x1920x16.Idx → EReal)
      = interp (m ((c : Thread nD τ).loc main_arg0)) (m ((c : Thread nD τ).loc main_arg1)) (ids m c) := by
  rw [tail_image, final6, combine_eq]
  exact split_interpFlat _ _ _ _

/-- Every weakly fair execution of the kernel's @main terminates with the image result at the interpolated image of the
    arguments, the mask result at `pix_to_face ≠ -1`, and the arguments as launched. -/
theorem run : θ_run defs (onTc (τ := τ) (main (F := Ideal))) ⟨m, fun _ => 0, ρ⟩ (fun r => ∀ c : Dev nD,
      r.2.mem ((c.tc : Thread nD τ).loc main_v44)
        = interp (m ((c : Thread nD τ).loc main_arg0)) (m ((c : Thread nD τ).loc main_arg1)) (ids m c)
      ∧ r.2.mem ((c.tc : Thread nD τ).loc main_v46)
        = cmpi .ne (m ((c : Thread nD τ).loc main_arg3)) (broadcastInDim S2x1080x1920 ![] bcast_S_S2x1080x1920 (constantI S_ 32 4294967295#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v44 (Pipeline.mem_restRefs_of main_v44 (by decide) (by decide))).trans (image_eq m c),
      ((h c).2 main_v46 (Pipeline.mem_restRefs_of main_v46 (by decide) (by decide))).trans (tail_mask m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Hand

end
-- ==== Proof.RefValue.lean ====
/-
  The reference's image is the interpolated image.

  The reference gathers all three corners' attribute rows at once (start indices `[2, 1080, 1920, 3, 1]`), multiplies by
  the barycentric coordinates broadcast along the channel axis, and sums over the corner axis from 0. Read at an entry
  that is `0 + (c₀ + c₁ + c₂)` with `c_k` corner `k`'s weighted attribute: the interpolated image.
-/
import proofs.«156141_j47845935678015_2_alg».proof.Proof.Gen.ReferenceIdeal.Read
import proofs.«156141_j47845935678015_2_alg».proof.Proof.Interp
import Idealize.ShloMosaic.PureOps.Ideal.Laws

set_option maxRecDepth 16384

noncomputable section

namespace Cert.ReferenceIdeal.Hand

open Cert.ReferenceIdeal Cert.ReferenceIdeal.Gen Cert.ReferenceIdeal.Read Cert.Bary
open Idealize.ShloMosaic Idealize.ShloMosaic.TcCoe Idealize.ShloMosaic.ValueIdx Idealize.ShloMosaic.BatchGather

/-- The reference's vertex ids, counted from the end when negative, are `wrap` of `faces[pix_to_face]`. -/
theorem ids_wrapped (x2 : (⟨S200000x3, .i32⟩ : BufTy).Contents (Elt Ideal)) (x3 : (⟨S2x1080x1920, .i32⟩ : BufTy).Contents (Elt Ideal))
    (i : S2x1080x1920x3.Idx) :
    val_main_v11 (F := Ideal) x2 x3 i = wrap (val_main_v6 (F := Ideal) x2 x3 i) := by
  rw [val_main_v11_apply, val_main_v8_apply, val_main_v10_apply, val_main_v7_apply, val_main_v9_apply,
    val_main_c_1_apply, val_main_c_2_apply]
  rfl

/-- The product the reference sums, at corner `k`: that corner's weighted attribute. -/
theorem corner_eq (x0 : (⟨S2x100000x16, .f32⟩ : BufTy).Contents (Elt Ideal)) (x1 : (⟨S2x1080x1920x3, .f32⟩ : BufTy).Contents (Elt Ideal))
    (x2 : (⟨S200000x3, .i32⟩ : BufTy).Contents (Elt Ideal)) (x3 : (⟨S2x1080x1920, .i32⟩ : BufTy).Contents (Elt Ideal))
    (b : Fin 2) (h : Fin 1080) (p : Fin 1920) (d : Fin 16) (k : Fin 3) :
    val_main_v16 (F := Ideal) x0 x1 x2 x3 (ix5 b h p k d) = corner x0 x1 (val_main_v6 (F := Ideal) x2 x3) b h p d k := by
  rw [val_main_v16_apply, val_main_v15_apply, val_main_v14_apply]
  unfold val_main_v13
  have hg : Host.gather gather_S2x100000x16_S2x1080x1920x3x1_S2x1080x1920x3x16_4_1_0_0_1_4_1116 x0
        (val_main_v12 (F := Ideal) x2 x3) (ix5 b h p k d)
      = x0 (ix3 b (row 100000 (by decide) (val_main_v12 (F := Ideal) x2 x3 (ix5 b h p k ⟨0, Nat.one_pos⟩))) d) :=
    rows5_apply (by decide) gather_S2x100000x16_S2x1080x1920x3x1_S2x1080x1920x3x16_4_1_0_0_1_4_1116_wf x0 _ b h p k d
  rw [hg, val_main_v12_apply]
  have hi : idx_main_v12 (ix5 b h p k ⟨0, Nat.one_pos⟩) = ix4 b h p k :=
    funext fun a => Fin.ext (by match a with | ⟨0, _⟩ => rfl | ⟨1, _⟩ => rfl | ⟨2, _⟩ => rfl | ⟨3, _⟩ => rfl)
  have hw : idx_main_v14 (idx_main_v15 (ix5 b h p k d)) = ix4 b h p k :=
    funext fun a => Fin.ext (by match a with | ⟨0, _⟩ => rfl | ⟨1, _⟩ => rfl | ⟨2, _⟩ => rfl | ⟨3, _⟩ => rfl)
  rw [hi, hw, ids_wrapped]
  rfl

/-- The reference's image, as a function of the arguments, is the interpolated image at `faces[pix_to_face]`. -/
theorem image_eq (x0 : (⟨S2x100000x16, .f32⟩ : BufTy).Contents (Elt Ideal)) (x1 : (⟨S2x1080x1920x3, .f32⟩ : BufTy).Contents (Elt Ideal))
    (x2 : (⟨S200000x3, .i32⟩ : BufTy).Contents (Elt Ideal)) (x3 : (⟨S2x1080x1920, .i32⟩ : BufTy).Contents (Elt Ideal)) :
    val_main_v17 (F := Ideal) x0 x1 x2 x3 = interp x0 x1 (val_main_v6 (F := Ideal) x2 x3) := by
  funext i
  obtain ⟨b, h, p, d, rfl⟩ : ∃ (b : Fin 2) (h : Fin 1080) (p : Fin 1920) (d : Fin 16), i = ix4 b h p d :=
    ⟨i 0, i 1, i 2, i 3, eq_ix4 i⟩
  rw [val_main_v17_apply, Fin.sum_univ_three]
  have hk : ∀ k : Fin 3, idx_main_v17 (ix4 b h p d) k = ix5 b h p k d := fun k =>
    funext fun a => Fin.ext (by match a with | ⟨0, _⟩ => rfl | ⟨1, _⟩ => rfl | ⟨2, _⟩ => rfl | ⟨3, _⟩ => rfl | ⟨4, _⟩ => rfl)
  rw [hk, hk, hk, corner_eq, corner_eq, corner_eq, val_main_cst_apply, Ideal.ofBits_def, Ideal.ofBits_zero_f32, zero_add]
  rfl

end Cert.ReferenceIdeal.Hand

end
-- ==== Proof.lean ====
/-
  Barycentric interpolation of vertex attributes over a rasterized image: the kernel against its reference.

  Both programs look up, for every pixel, the three vertex ids of the face it shows (`faces[pix_to_face]`, a negative
  index counting from the end), gather the three vertices' attribute rows (ids again counted from the end when negative
  and clamped as a gather clamps), and add the rows weighted by the pixel's barycentric coordinates. The kernel gathers
  each corner separately, merges the pixel and channel axes, and adds `(w₀·a₀ + w₁·a₁) + w₂·a₂` block by block of 24
  image rows; the reference gathers the three corners at once and sums `0 + (w₀·a₀ + w₁·a₁ + w₂·a₂)` over the corner
  axis. On the extended reals both are the same sum (`Cert.Bary.interp`); no law beyond `0 + x = x` is needed, so
  the finiteness of the inputs is never used. The validity mask is the same comparison in both programs.
-/
import proofs.«156141_j47845935678015_2_alg».proof.Defs
import proofs.«156141_j47845935678015_2_alg».proof.Proof.Gen.Kernel
import proofs.«156141_j47845935678015_2_alg».proof.Proof.Gen.Kernel.Skeleton
import proofs.«156141_j47845935678015_2_alg».proof.Proof.Gen.Kernel.Launch
import proofs.«156141_j47845935678015_2_alg».proof.Proof.Gen.Kernel.Points
import proofs.«156141_j47845935678015_2_alg».proof.Proof.Gen.Kernel.Frame
import proofs.«156141_j47845935678015_2_alg».proof.Proof.Gen.KernelIdeal
import proofs.«156141_j47845935678015_2_alg».proof.Proof.Gen.KernelIdeal.Skeleton
import proofs.«156141_j47845935678015_2_alg».proof.Proof.Gen.KernelIdeal.Launch
import proofs.«156141_j47845935678015_2_alg».proof.Proof.Gen.KernelIdeal.Points
import proofs.«156141_j47845935678015_2_alg».proof.Proof.Gen.KernelIdeal.Frame
import proofs.«156141_j47845935678015_2_alg».proof.Proof.Gen.ReferenceIdeal
import proofs.«156141_j47845935678015_2_alg».proof.Proof.Gen.Pre_finite_inputs
import proofs.«156141_j47845935678015_2_alg».proof.Proof.Gen.ReferenceIdeal.Run
import proofs.«156141_j47845935678015_2_alg».proof.Proof.Gen.ReferenceIdeal.Read
import proofs.«156141_j47845935678015_2_alg».proof.Proof.KernelValue
import proofs.«156141_j47845935678015_2_alg».proof.Proof.RefValue
import Idealize.ShloMosaic.Adequacy
import Idealize.ShloMosaic.Init

set_option maxRecDepth 16384

noncomputable section

namespace Cert.Proof

open Idealize.ShloMosaic Idealize.SL.Sem

/-- The kernel as printed runs and keeps its arguments. -/
theorem frame_k : Cert.frame_Kernel := fun m ρ _ => Cert.Kernel.Gen.frame m ρ

/-- The idealized kernel runs and keeps its arguments. -/
theorem frame_ki : Cert.frame_KernelIdeal := fun m ρ _ => Cert.KernelIdeal.Gen.frame m ρ

/-- The idealized reference runs and keeps its arguments: its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- Both programs compute `faces[pix_to_face]` by the same operations. -/
theorem ids_eq (x2 : IVec Cert.KernelIdeal.S200000x3 32) (x3 : IVec Cert.KernelIdeal.S2x1080x1920 32) :
    Cert.ReferenceIdeal.Read.val_main_v6 (F := Ideal) x2 x3 = Cert.KernelIdeal.Hand.faceIds x2 x3 := rfl

/-- From memories that agree on the arguments both programs end with the interpolated image and the validity mask. -/
theorem algebraic : Cert.algebraic_KernelIdeal_ReferenceIdeal := by
  intro m ρ m' ρ' _ hagree
  refine ⟨_, _, Cert.KernelIdeal.Hand.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v17_eq, Cert.ReferenceIdeal.Hand.image_eq, ids_eq,
      (hagree c).1, (hagree c).2.1, (hagree c).2.2.1, (hagree c).2.2.2]
  · rw [(hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
